-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91)) (v1 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_v93) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x320000 : Shape := ⟨2, ![2, 320000]⟩
abbrev S512x512 : Shape := ⟨2, ![512, 512]⟩
abbrev S512 : Shape := ⟨1, ![512]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S20000x512 .f32) (main_arg1 : IVec S2x320000 32) (main_arg2 : FVec F S512x512 .f32) (main_arg3 : FVec F S512 .f32) (main_arg4 : FVec F S512x512 .f32) (main_arg5 : FVec F S512 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_v13 main_v16
-- ==== Kernel.lean ====
abbrev S20000x512 : Shape := ⟨2, ![20000, 512]⟩
abbrev S2x320000 : Shape := ⟨2, ![2, 320000]⟩
abbrev S512x512 : Shape := ⟨2, ![512, 512]⟩
abbrev S512 : Shape := ⟨1, ![512]⟩
abbrev S1x320000 : Shape := ⟨2, ![1, 320000]⟩
abbrev S320000 : Shape := ⟨1, ![320000]⟩
abbrev S4000x512 : Shape := ⟨2, ![4000, 512]⟩
abbrev S20000 : Shape := ⟨1, ![20000]⟩
abbrev S340000 : Shape := ⟨1, ![340000]⟩
abbrev S_ : Shape := ⟨0, ![]⟩
abbrev S340000x1 : Shape := ⟨2, ![340000, 1]⟩
abbrev S340000x512 : Shape := ⟨2, ![340000, 512]⟩
abbrev S1x512 : Shape := ⟨2, ![1, 512]⟩

abbrev nBuf : Space → Nat
  | .hbm => 131
  | .vmem => 10
  | .smem => 0
  | _ => 0

abbrev hbmTy0_0 (i : Nat) : BufTy := match i % 128 with
  | 0 => ⟨S20000x512, .f32⟩
  | 1 => ⟨S2x320000, .i32⟩
  | 2 => ⟨S512x512, .f32⟩
  | 3 => ⟨S512, .f32⟩
  | 4 => ⟨S512x512, .f32⟩
  | 5 => ⟨S512, .f32⟩
  | 6 => ⟨S1x320000, .i32⟩
  | 7 => ⟨S320000, .i32⟩
  | 8 => ⟨S1x320000, .i32⟩
  | 9 => ⟨S320000, .i32⟩
  | 10 => ⟨S20000x512, .f32⟩
  | 11 => ⟨S20000, .i32⟩
  | 12 => ⟨S340000, .i32⟩
  | 13 => ⟨S340000, .i32⟩
  | 14 => ⟨S_, .f32⟩
  | 15 => ⟨S340000, .f32⟩
  | 16 => ⟨S_, .f32⟩
  | 17 => ⟨S20000, .f32⟩
  | 18 => ⟨S340000x1, .i32⟩
  | 19 => ⟨S20000, .f32⟩
  | 20 => ⟨S_, .f32⟩
  | 21 => ⟨S20000, .f32⟩
  | 22 => ⟨S20000, .i1⟩
  | 23 => ⟨S20000, .f32⟩
  | 24 => ⟨S_, .f32⟩
  | 25 => ⟨S_, .f32⟩
  | 26 => ⟨S20000, .f32⟩
  | 27 => ⟨S20000, .f32⟩
  | 28 => ⟨S_, .i32⟩
  | 29 => ⟨S340000, .i32⟩
  | 30 => ⟨S340000, .i1⟩
  | 31 => ⟨S_, .i32⟩
  | 32 => ⟨S340000, .i32⟩
  | 33 => ⟨S340000, .i32⟩
  | 34 => ⟨S340000, .i32⟩
  | 35 => ⟨S340000x1, .i32⟩
  | 36 => ⟨S340000, .f32⟩
  | 37 => ⟨S_, .i32⟩
  | 38 => ⟨S340000, .i32⟩
  | 39 => ⟨S340000, .i1⟩
  | 40 => ⟨S_, .i32⟩
  | 41 => ⟨S340000, .i32⟩
  | 42 => ⟨S340000, .i32⟩
  | 43 => ⟨S340000, .i32⟩
  | 44 => ⟨S340000x1, .i32⟩
  | 45 => ⟨S340000, .f32⟩
  | 46 => ⟨S340000, .f32⟩
  | 47 => ⟨S_, .i32⟩
  | 48 => ⟨S340000, .i32⟩
  | 49 => ⟨S340000, .i1⟩
  | 50 => ⟨S_, .i32⟩
  | 51 => ⟨S340000, .i32⟩
  | 52 => ⟨S340000, .i32⟩
  | 53 => ⟨S340000, .i32⟩
  | 54 => ⟨S340000x1, .i32⟩
  | 55 => ⟨S340000x512, .f32⟩
  | 56 => ⟨S340000x1, .f32⟩
  | 57 => ⟨S340000x512, .f32⟩
  | 58 => ⟨S340000x512, .f32⟩
  | 59 => ⟨S_, .f32⟩
  | 60 => ⟨S20000x512, .f32⟩
  | 61 => ⟨S340000x1, .i32⟩
  | 62 => ⟨S20000x512, .f32⟩
  | 63 => ⟨S1x512, .f32⟩
  | 64 => ⟨S20000x512, .f32⟩
  | 65 => ⟨S20000x512, .f32⟩
  | 66 => ⟨S_, .f32⟩
  | 67 => ⟨S20000x512, .f32⟩
  | 68 => ⟨S20000x512, .f32⟩
  | 69 => ⟨S20000x512, .f32⟩
  | 70 => ⟨S20000, .i32⟩
  | 71 => ⟨S340000, .i32⟩
  | 72 => ⟨S340000, .i32⟩
  | 73 => ⟨S_, .f32⟩
  | 74 => ⟨S340000, .f32⟩
  | 75 => ⟨S_, .f32⟩
  | 76 => ⟨S20000, .f32⟩
  | 77 => ⟨S340000x1, .i32⟩
  | 78 => ⟨S20000, .f32⟩
  | 79 => ⟨S_, .f32⟩
  | 80 => ⟨S20000, .f32⟩
  | 81 => ⟨S20000, .i1⟩
  | 82 => ⟨S20000, .f32⟩
  | 83 => ⟨S_, .f32⟩
  | 84 => ⟨S_, .f32⟩
  | 85 => ⟨S20000, .f32⟩
  | 86 => ⟨S20000, .f32⟩
  | 87 => ⟨S_, .i32⟩
  | 88 => ⟨S340000, .i32⟩
  | 89 => ⟨S340000, .i1⟩
  | 90 => ⟨S_, .i32⟩
  | 91 => ⟨S340000, .i32⟩
  | 92 => ⟨S340000, .i32⟩
  | 93 => ⟨S340000, .i32⟩
  | 94 => ⟨S340000x1, .i32⟩
  | 95 => ⟨S340000, .f32⟩
  | 96 => ⟨S_, .i32⟩
  | 97 => ⟨S340000, .i32⟩
  | 98 => ⟨S340000, .i1⟩
  | 99 => ⟨S_, .i32⟩
  | 100 => ⟨S340000, .i32⟩
  | 101 => ⟨S340000, .i32⟩
  | 102 => ⟨S340000, .i32⟩
  | 103 => ⟨S340000x1, .i32⟩
  | 104 => ⟨S340000, .f32⟩
  | 105 => ⟨S340000, .f32⟩
  | 106 => ⟨S_, .i32⟩
  | 107 => ⟨S340000, .i32⟩
  | 108 => ⟨S340000, .i1⟩
  | 109 => ⟨S_, .i32⟩
  | 110 => ⟨S340000, .i32⟩
  | 111 => ⟨S340000, .i32⟩
  | 112 => ⟨S340000, .i32⟩
  | 113 => ⟨S340000x1, .i32⟩
  | 114 => ⟨S340000x512, .f32⟩
  | 115 => ⟨S340000x1, .f32⟩
  | 116 => ⟨S340000x512, .f32⟩
  | 117 => ⟨S340000x512, .f32⟩
  | 118 => ⟨S_, .f32⟩
  | 119 => ⟨S20000x512, .f32⟩
  | 120 => ⟨S340000x1, .i32⟩
  | 121 => ⟨S20000x512, .f32⟩
  | 122 => ⟨S1x512, .f32⟩
  | 123 => ⟨S20000x512, .f32⟩
  | 124 => ⟨S20000x512, .f32⟩
  | 125 => ⟨S_, .f32⟩
  | 126 => ⟨S20000x512, .f32⟩
  | 127 => ⟨S20000x512, .f32⟩
  | _ => ⟨S20000x512, .f32⟩

abbrev hbmTy0_1 (i : Nat) : BufTy := match i % 128 with
  | 0 => ⟨S_, .f32⟩
  | 1 => ⟨S512, .f32⟩
  | 2 => ⟨S1x512, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | .local _ .vmem, ⟨0, _⟩ => ⟨S4000x512, .f32⟩
  | .local _ .vmem, ⟨1, _⟩ => ⟨S4000x512, .f32⟩
  | .local _ .vmem, ⟨2, _⟩ => ⟨S512x512, .f32⟩
  | .local _ .vmem, ⟨3, _⟩ => ⟨S4000x512, .f32⟩
  | .local _ .vmem, ⟨4, _⟩ => ⟨S4000x512, .f32⟩
  | .local _ .vmem, ⟨5, _⟩ => ⟨S4000x512, .f32⟩
  | .local _ .vmem, ⟨6, _⟩ => ⟨S4000x512, .f32⟩
  | .local _ .vmem, ⟨7, _⟩ => ⟨S512x512, .f32⟩
  | .local _ .vmem, ⟨8, _⟩ => ⟨S4000x512, .f32⟩
  | .local _ .vmem, ⟨9, _⟩ => ⟨S4000x512, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_v91 : Ref sig .tc := ⟨.hbm, 127, rfl⟩
abbrev main_cst_20 : Ref sig .tc := ⟨.hbm, 128, rfl⟩
abbrev main_v92 : Ref sig .tc := ⟨.hbm, 129, rfl⟩
abbrev main_v93 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  concatenates_S320000_S20000_S340000_d0 : Shape.Concatenates [S320000, S20000] S340000 0
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  bcast_S340000x1_S340000x512_0_1 : S340000x1.BroadcastsInDim S340000x512 (![0, 1] : Fin 2 → Fin S340000x512.rank)
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  shapeCasts_S4000x512_S4000x512 : S4000x512.ShapeCasts S4000x512
  reducesTo_S20000x512_S512_d0 : S20000x512.ReducesTo [0] S512
  h_S_ : 0 < S_.numel
  dot_S4000x512_S512x512_S4000x512_1_0_0_1_n_n_wf : DotDims.WF S4000x512 S512x512 S4000x512 [1] [0] [0] [1] [] []
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  gather_S20000x512_S340000x1_S340000x512_1_0_n_n_0_1_1512_wf : GatherDims.WF S20000x512 S340000x1 S340000x512 [1] [0] [] [0] [] 1 ![1, 512]
  scatter_S20000x512_S340000x1_S340000x512_1_0_0_1_wf : ScatterDims.WF S20000x512 S340000x1 S340000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S20000x512.size a
  hwx0_0 : ∀ i : grid0.Coords, EltTy.bits .f32 = 32 ∨ (Rect.block (s := S20000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x512.size a ≤ S20000x512.size a
  hwx0_2 : ∀ i : grid0.Coords, EltTy.bits .f32 = 32 ∨ (Rect.block (s := S20000x512) S4000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x512.size a ≤ S20000x512.size a
  hwx1_0 : ∀ i : grid1.Coords, EltTy.bits .f32 = 32 ∨ (Rect.block (s := S20000x512) S4000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x512.size a ≤ S20000x512.size a
  hwx1_2 : ∀ i : grid1.Coords, EltTy.bits .f32 = 32 ∨ (Rect.block (s := S20000x512) S4000x512.size (cc1_transform_2 i) (hinb1_2 i)).WholeWords (EltTy.packing .f32)

variable [Facts₀]

def dot_S4000x512_S512x512_S4000x512_1_0_0_1_n_n : DotDims S4000x512 S512x512 S4000x512 where
  lhsContracting := [1]
  rhsContracting := [0]
  lhsNonContracting := [0]
  rhsNonContracting := [1]
  lhsBatch := []
  rhsBatch := []
  wf := dot_S4000x512_S512x512_S4000x512_1_0_0_1_n_n_wf
def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S20000x512_S340000x1_S340000x512_1_0_n_n_0_1_1512 : GatherDims S20000x512 S340000x1 S340000x512 where
  offsetDims := [1]
  collapsedSliceDims := [0]
  operandBatchingDims := []
  startIndicesBatchingDims := []
  startIndexMap := [0]
  indexVectorDim := 1
  sliceSizes := ![1, 512]
  wf := gather_S20000x512_S340000x1_S340000x512_1_0_n_n_0_1_1512_wf
def scatter_S20000x512_S340000x1_S340000x512_1_0_0_1 : ScatterDims S20000x512 S340000x1 S340000x512 where
  updateWindowDims := [1]
  insertedWindowDims := [0]
  scatterDimsToOperandDims := [0]
  indexVectorDim := 1
  wf := scatter_S20000x512_S340000x1_S340000x512_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S4000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S20000x512 : Shape := ⟨2, ![20000, 512]⟩
abbrev S2x320000 : Shape := ⟨2, ![2, 320000]⟩
abbrev S512x512 : Shape := ⟨2, ![512, 512]⟩
abbrev S512 : Shape := ⟨1, ![512]⟩
abbrev S1x320000 : Shape := ⟨2, ![1, 320000]⟩
abbrev S320000 : Shape := ⟨1, ![320000]⟩
abbrev S20000 : Shape := ⟨1, ![20000]⟩
abbrev S340000 : Shape := ⟨1, ![340000]⟩
abbrev S_ : Shape := ⟨0, ![]⟩
abbrev S340000x1 : Shape := ⟨2, ![340000, 1]⟩
abbrev S340000x512 : Shape := ⟨2, ![340000, 512]⟩
abbrev S1x512 : Shape := ⟨2, ![1, 512]⟩

abbrev nBuf : Space → Nat
  | .hbm => 131
  | .vmem => 0
  | .smem => 0
  | _ => 0

abbrev hbmTy0_0 (i : Nat) : BufTy := match i % 128 with
  | 0 => ⟨S20000x512, .f32⟩
  | 1 => ⟨S2x320000, .i32⟩
  | 2 => ⟨S512x512, .f32⟩
  | 3 => ⟨S512, .f32⟩
  | 4 => ⟨S512x512, .f32⟩
  | 5 => ⟨S512, .f32⟩
  | 6 => ⟨S1x320000, .i32⟩
  | 7 => ⟨S320000, .i32⟩
  | 8 => ⟨S1x320000, .i32⟩
  | 9 => ⟨S320000, .i32⟩
  | 10 => ⟨S20000x512, .f32⟩
  | 11 => ⟨S20000, .i32⟩
  | 12 => ⟨S340000, .i32⟩
  | 13 => ⟨S340000, .i32⟩
  | 14 => ⟨S_, .f32⟩
  | 15 => ⟨S340000, .f32⟩
  | 16 => ⟨S_, .f32⟩
  | 17 => ⟨S20000, .f32⟩
  | 18 => ⟨S340000x1, .i32⟩
  | 19 => ⟨S20000, .f32⟩
  | 20 => ⟨S_, .f32⟩
  | 21 => ⟨S20000, .f32⟩
  | 22 => ⟨S20000, .i1⟩
  | 23 => ⟨S20000, .f32⟩
  | 24 => ⟨S_, .f32⟩
  | 25 => ⟨S_, .f32⟩
  | 26 => ⟨S20000, .f32⟩
  | 27 => ⟨S20000, .f32⟩
  | 28 => ⟨S_, .i32⟩
  | 29 => ⟨S340000, .i32⟩
  | 30 => ⟨S340000, .i1⟩
  | 31 => ⟨S_, .i32⟩
  | 32 => ⟨S340000, .i32⟩
  | 33 => ⟨S340000, .i32⟩
  | 34 => ⟨S340000, .i32⟩
  | 35 => ⟨S340000x1, .i32⟩
  | 36 => ⟨S340000, .f32⟩
  | 37 => ⟨S_, .i32⟩
  | 38 => ⟨S340000, .i32⟩
  | 39 => ⟨S340000, .i1⟩
  | 40 => ⟨S_, .i32⟩
  | 41 => ⟨S340000, .i32⟩
  | 42 => ⟨S340000, .i32⟩
  | 43 => ⟨S340000, .i32⟩
  | 44 => ⟨S340000x1, .i32⟩
  | 45 => ⟨S340000, .f32⟩
  | 46 => ⟨S340000, .f32⟩
  | 47 => ⟨S_, .i32⟩
  | 48 => ⟨S340000, .i32⟩
  | 49 => ⟨S340000, .i1⟩
  | 50 => ⟨S_, .i32⟩
  | 51 => ⟨S340000, .i32⟩
  | 52 => ⟨S340000, .i32⟩
  | 53 => ⟨S340000, .i32⟩
  | 54 => ⟨S340000x1, .i32⟩
  | 55 => ⟨S340000x512, .f32⟩
  | 56 => ⟨S340000x1, .f32⟩
  | 57 => ⟨S340000x512, .f32⟩
  | 58 => ⟨S340000x512, .f32⟩
  | 59 => ⟨S_, .f32⟩
  | 60 => ⟨S20000x512, .f32⟩
  | 61 => ⟨S340000x1, .i32⟩
  | 62 => ⟨S20000x512, .f32⟩
  | 63 => ⟨S1x512, .f32⟩
  | 64 => ⟨S20000x512, .f32⟩
  | 65 => ⟨S20000x512, .f32⟩
  | 66 => ⟨S_, .f32⟩
  | 67 => ⟨S20000x512, .f32⟩
  | 68 => ⟨S20000x512, .f32⟩
  | 69 => ⟨S20000x512, .f32⟩
  | 70 => ⟨S20000, .i32⟩
  | 71 => ⟨S340000, .i32⟩
  | 72 => ⟨S340000, .i32⟩
  | 73 => ⟨S_, .f32⟩
  | 74 => ⟨S340000, .f32⟩
  | 75 => ⟨S_, .f32⟩
  | 76 => ⟨S20000, .f32⟩
  | 77 => ⟨S340000x1, .i32⟩
  | 78 => ⟨S20000, .f32⟩
  | 79 => ⟨S_, .f32⟩
  | 80 => ⟨S20000, .f32⟩
  | 81 => ⟨S20000, .i1⟩
  | 82 => ⟨S20000, .f32⟩
  | 83 => ⟨S_, .f32⟩
  | 84 => ⟨S_, .f32⟩
  | 85 => ⟨S20000, .f32⟩
  | 86 => ⟨S20000, .f32⟩
  | 87 => ⟨S_, .i32⟩
  | 88 => ⟨S340000, .i32⟩
  | 89 => ⟨S340000, .i1⟩
  | 90 => ⟨S_, .i32⟩
  | 91 => ⟨S340000, .i32⟩
  | 92 => ⟨S340000, .i32⟩
  | 93 => ⟨S340000, .i32⟩
  | 94 => ⟨S340000x1, .i32⟩
  | 95 => ⟨S340000, .f32⟩
  | 96 => ⟨S_, .i32⟩
  | 97 => ⟨S340000, .i32⟩
  | 98 => ⟨S340000, .i1⟩
  | 99 => ⟨S_, .i32⟩
  | 100 => ⟨S340000, .i32⟩
  | 101 => ⟨S340000, .i32⟩
  | 102 => ⟨S340000, .i32⟩
  | 103 => ⟨S340000x1, .i32⟩
  | 104 => ⟨S340000, .f32⟩
  | 105 => ⟨S340000, .f32⟩
  | 106 => ⟨S_, .i32⟩
  | 107 => ⟨S340000, .i32⟩
  | 108 => ⟨S340000, .i1⟩
  | 109 => ⟨S_, .i32⟩
  | 110 => ⟨S340000, .i32⟩
  | 111 => ⟨S340000, .i32⟩
  | 112 => ⟨S340000, .i32⟩
  | 113 => ⟨S340000x1, .i32⟩
  | 114 => ⟨S340000x512, .f32⟩
  | 115 => ⟨S340000x1, .f32⟩
  | 116 => ⟨S340000x512, .f32⟩
  | 117 => ⟨S340000x512, .f32⟩
  | 118 => ⟨S_, .f32⟩
  | 119 => ⟨S20000x512, .f32⟩
  | 120 => ⟨S340000x1, .i32⟩
  | 121 => ⟨S20000x512, .f32⟩
  | 122 => ⟨S1x512, .f32⟩
  | 123 => ⟨S20000x512, .f32⟩
  | 124 => ⟨S20000x512, .f32⟩
  | 125 => ⟨S_, .f32⟩
  | 126 => ⟨S20000x512, .f32⟩
  | 127 => ⟨S20000x512, .f32⟩
  | _ => ⟨S20000x512, .f32⟩

abbrev hbmTy0_1 (i : Nat) : BufTy := match i % 128 with
  | 0 => ⟨S_, .f32⟩
  | 1 => ⟨S512, .f32⟩
  | 2 => ⟨S1x512, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_v91 : Ref sig .tc := ⟨.hbm, 127, rfl⟩
abbrev main_cst_20 : Ref sig .tc := ⟨.hbm, 128, rfl⟩
abbrev main_v92 : Ref sig .tc := ⟨.hbm, 129, rfl⟩
abbrev main_v93 : Ref sig .tc := ⟨.hbm, 130, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S20000_S340000_d0 : Shape.Concatenates [S320000, S20000] S340000 0
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  bcast_S340000x1_S340000x512_0_1 : S340000x1.BroadcastsInDim S340000x512 (![0, 1] : Fin 2 → Fin S340000x512.rank)
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  reducesTo_S20000x512_S512_d0 : S20000x512.ReducesTo [0] S512
  h_S_ : 0 < S_.numel
  dot_S20000x512_S512x512_S20000x512_1_0_0_1_n_n_wf : DotDims.WF S20000x512 S512x512 S20000x512 [1] [0] [0] [1] [] []
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  gather_S20000x512_S340000x1_S340000x512_1_0_n_n_0_1_1512_wf : GatherDims.WF S20000x512 S340000x1 S340000x512 [1] [0] [] [0] [] 1 ![1, 512]
  scatter_S20000x512_S340000x1_S340000x512_1_0_0_1_wf : ScatterDims.WF S20000x512 S340000x1 S340000x512 [1] [0] [0] 1

variable [Facts₀]

def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S20000x512_S340000x1_S340000x512_1_0_n_n_0_1_1512 : GatherDims S20000x512 S340000x1 S340000x512 where
  offsetDims := [1]
  collapsedSliceDims := [0]
  operandBatchingDims := []
  startIndicesBatchingDims := []
  startIndexMap := [0]
  indexVectorDim := 1
  sliceSizes := ![1, 512]
  wf := gather_S20000x512_S340000x1_S340000x512_1_0_n_n_0_1_1512_wf
def scatter_S20000x512_S340000x1_S340000x512_1_0_0_1 : ScatterDims S20000x512 S340000x1 S340000x512 where
  updateWindowDims := [1]
  insertedWindowDims := [0]
  scatterDimsToOperandDims := [0]
  indexVectorDim := 1
  wf := scatter_S20000x512_S340000x1_S340000x512_1_0_0_1_wf

class Facts : Prop extends Facts₀ where

variable [Facts]
-- ==== Proof.GcnLayer.lean ====
/-
  One graph-convolution layer, as a function of its inputs.

  The graph has 20000 nodes and 320000 directed edges, given as two vectors of node numbers: the sources `s` and the
  targets `d`.  Every node also gets a self loop, so each vector is extended by the numbers 0 … 19999 (`withLoops`),
  340000 entries in all.  With `deg p` the number of extended edges whose target is `p` and
  `r p = 1 / sqrt (deg p)` where `deg p > 0` and `0` elsewhere, a layer maps a feature matrix `h` (one row of 512
  features per node) and a bias row `b` to

      relu ( Σ over extended edges e with target p of  h[source e] · (r[source e] · r[target e])  +  b )

  row by row.  A node number used as a row number of a gather is first wrapped (a negative number has 20000 added),
  as jnp indexing does; a scatter takes the target numbers as they are.  The layer is written here once, operation by
  operation, for any interpretation of the float operations: both programs compared in this certificate apply it
  twice, to different spellings of the matrix product `h = x · W`, and then take the maximum of every column
  (`colMax`).  Nothing is proved here; the definitions only give the common part of the two programs a name.
-/
import proofs.«149007_j75780402970819_1_alg».proof.Proof.Gen.KernelIdeal

noncomputable section

namespace Cert.Gcn

open Idealize.ShloMosaic Cert.KernelIdeal Cert.KernelIdeal.Gen

variable {F : FTy → Type} [FloatOps F]

/-- The contents of an array of shape `s` and element type `e`. -/
abbrev Arr (F : FTy → Type) (s : Shape) (e : EltTy) : Type := (⟨s, e⟩ : BufTy).Contents (Elt F)

/-- Row `0` of the [2, 320000] edge array as a vector: the edges' sources. -/
def sources (ei : Arr F S2x320000 .i32) : Arr F S320000 .i32 :=
  shapeCast S320000 (extractStridedSlice S1x320000 ![0, 0] ei slices_S2x320000_S1x320000_0_0) shapeCasts_S1x320000_S320000

/-- Row `1` of the edge array as a vector: the edges' targets. -/
def targets (ei : Arr F S2x320000 .i32) : Arr F S320000 .i32 :=
  shapeCast S320000 (extractStridedSlice S1x320000 ![1, 0] ei slices_S2x320000_S1x320000_1_0) shapeCasts_S1x320000_S320000

/-- 320000 node numbers followed by the self loops' numbers 0 … 19999. -/
def withLoops (v : Arr F S320000 .i32) : Arr F S340000 .i32 :=
  concatenate S340000 0 [⟨S320000, v⟩, ⟨S20000, iotaInDim S20000 32 0⟩] concatenates_S320000_S20000_S340000_d0

/-- The index wrap of jnp: a node number below zero has 20000 added. -/
def wrap (v : Arr F S340000 .i32) : Arr F S340000 .i32 :=
  select (cmpi .slt v (broadcastInDim S340000 ![] bcast_S_S340000 (constantI S_ 32 0#32)))
    (addi v (broadcastInDim S340000 ![] bcast_S_S340000 (constantI S_ 32 20000#32))) v

/-- A vector of node numbers stood up as a column of start indices. -/
def column (v : Arr F S340000 .i32) : Arr F S340000x1 .i32 :=
  broadcastInDim S340000x1 ![0] bcast_S340000_S340000x1_0 v

/-- `deg`: a one added at its target for every extended edge. -/
def degree (d : Arr F S340000 .i32) : Arr F S20000 .f32 :=
  Host.scatterAdd scatter_S20000_S340000x1_S340000_n_0_0_1
    (broadcastInDim S20000 ![] bcast_S_S20000 (constant S_ .f32 0x00000000#32)) (column d)
    (broadcastInDim S340000 ![] bcast_S_S340000 (constant S_ .f32 0x3F800000#32))

/-- `r`: the reciprocal square root of the degree where the degree is positive, zero elsewhere. -/
def invSqrt (g : Arr F S20000 .f32) : Arr F S20000 .f32 :=
  select (cmpf .ogt g (broadcastInDim S20000 ![] bcast_S_S20000 (constant S_ .f32 0x00000000#32))) (Host.rsqrt g)
    (broadcastInDim S20000 ![] bcast_S_S20000 (id (constant S_ .f32 0x00000000#32)))

/-- The weight `r[source e] · r[target e]` of every extended edge. -/
def edgeWeight (s d : Arr F S340000 .i32) : Arr F S340000 .f32 :=
  mulf (Host.gather gather_S20000_S340000x1_S340000_n_0_n_n_0_1_1 (invSqrt (degree d)) (column (wrap s)))
    (Host.gather gather_S20000_S340000x1_S340000_n_0_n_n_0_1_1 (invSqrt (degree d)) (column (wrap d)))

/-- The weighted rows of `h` at the edges' sources, added up at the edges' targets, plus the bias row. -/
def aggregate (h : Arr F S20000x512 .f32) (s d : Arr F S340000 .i32) (b : Arr F S512 .f32) : Arr F S20000x512 .f32 :=
  addf
    (Host.scatterAdd scatter_S20000x512_S340000x1_S340000x512_1_0_0_1
      (broadcastInDim S20000x512 ![] bcast_S_S20000x512 (constant S_ .f32 0x00000000#32)) (column d)
      (mulf (Host.gather gather_S20000x512_S340000x1_S340000x512_1_0_n_n_0_1_1512 h (column (wrap s)))
        (broadcastInDim S340000x512 ![0, 1] bcast_S340000x1_S340000x512_0_1
          (broadcastInDim S340000x1 ![0] bcast_S340000_S340000x1_0 (edgeWeight s d)))))
    (broadcastInDim S20000x512 ![0, 1] bcast_S1x512_S20000x512_0_1 (broadcastInDim S1x512 ![1] bcast_S512_S1x512_1 b))

/-- The maximum with zero, entry by entry. -/
def relu (y : Arr F S20000x512 .f32) : Arr F S20000x512 .f32 :=
  maximumf y (broadcastInDim S20000x512 ![] bcast_S_S20000x512 (constant S_ .f32 0x00000000#32))

/-- One layer: `relu (aggregate h over the edges with self loops + b)`. -/
def layer (h : Arr F S20000x512 .f32) (s d : Arr F S320000 .i32) (b : Arr F S512 .f32) : Arr F S20000x512 .f32 :=
  relu (aggregate h (withLoops s) (withLoops d) b)

/-- The maximum of every column (from minus infinity), kept as a [1, 512] row. -/
def colMax (y : Arr F S20000x512 .f32) : Arr F S1x512 .f32 :=
  broadcastInDim S1x512 ![1] bcast_S512_S1x512_1
    (Host.reduce FloatOps.maximumf y (constant S_ .f32 0xFF800000#32) reducesTo_S20000x512_S512_d0 h_S_)

end Cert.Gcn

end
-- ==== Proof.LibPlainDot.lean ====
/-
  A plain matrix product read at an entry.

  For dimension numbers of the plain form — operands `[a, K]` and `[K, b]`, result `[a, b]`, the left operand's axis 1
  contracted with the right operand's axis 0, no batch axis — the left operand's index at result entry `(p, q)` and
  contraction position `k` is `(p, k)` and the right operand's is `(k, q)`.  On the extended reals both the vector unit's
  `tpu.matmul` into a zero accumulator and the host's `dot_general` are then the plain sum
  `Σ_k x(p, k) · w(k, q)` over `k : Fin K`.  Stated from hypotheses on the six dimension lists, so that it applies to any
  printed record of this form, whatever the extents.
-/
import Idealize.ShloMosaic.Lib.ValueIdx
import Idealize.ShloMosaic.PureOps.Ideal.Laws

noncomputable section

namespace Cert.Lib.PlainDot

open Idealize.ShloMosaic Idealize.ShloMosaic.ValueIdx

variable {a K b : Nat} (d : DotDims ⟨2, ![a, K]⟩ ⟨2, ![K, b]⟩ ⟨2, ![a, b]⟩)

/-- The left operand's row coordinate is the result's row coordinate. -/
theorem lhsIdx_row (hlb : d.lhsBatch = []) (hln : d.lhsNonContracting = [0])
    (j : (⟨2, ![a, b]⟩ : Shape).Idx) (k : d.contr.Idx) : (d.lhsIdx j k 0).val = (j 0).val := by
  unfold DotDims.lhsIdx
  have hb : (0 : Fin 2) ∉ d.lhsBatch := by rw [hlb]; exact List.not_mem_nil
  have hn : (0 : Fin 2) ∈ d.lhsNonContracting := by rw [hln]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column coordinate. -/
theorem rhsIdx_col (hlb : d.lhsBatch = []) (hln : d.lhsNonContracting = [0]) (hrb : d.rhsBatch = [])
    (hrn : d.rhsNonContracting = [1])
    (j : (⟨2, ![a, b]⟩ : Shape).Idx) (k : d.contr.Idx) : (d.rhsIdx j k 1).val = (j 1).val := by
  unfold DotDims.rhsIdx
  have hb : (1 : Fin 2) ∉ d.rhsBatch := by rw [hrb]; exact List.not_mem_nil
  have hn : (1 : Fin 2) ∈ d.rhsNonContracting := by rw [hrn]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

variable (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K)

include hlb hln hlc in
/-- The left operand is read at `(p, k)`. -/
theorem lhsIdx_plain (p : Fin a) (q : Fin b) (k : Fin K) :
    d.lhsIdx (ix2 p q) ((contrEquiv1 d K hr hs).symm k) = ix2 p k := by
  funext ax
  refine Fin.ext ?_
  match ax with
  | ⟨0, _⟩ => exact lhsIdx_row d hlb hln (ix2 p q) _
  | ⟨1, _⟩ =>
    show (d.lhsIdx (ix2 p q) ((contrEquiv1 d K hr hs).symm k) 1).val = k.val
    rw [DotDims.lhsIdx_val_of_single d hlc]
    exact contrEquiv1_symm_val d K hr hs k

include hlb hln hrb hrn hrc in
/-- The right operand is read at `(k, q)`. -/
theorem rhsIdx_plain (p : Fin a) (q : Fin b) (k : Fin K) :
    d.rhsIdx (ix2 p q) ((contrEquiv1 d K hr hs).symm k) = ix2 k q := by
  funext ax
  refine Fin.ext ?_
  match ax with
  | ⟨0, _⟩ =>
    show (d.rhsIdx (ix2 p q) ((contrEquiv1 d K hr hs).symm k) 0).val = k.val
    rw [DotDims.rhsIdx_val_of_single d hrc]
    exact contrEquiv1_symm_val d K hr hs k
  | ⟨1, _⟩ => exact rhsIdx_col d hlb hln hrb hrn (ix2 p q) _

include hlb hln hlc hrb hrn hrc hr hs in
/-- The vector unit's product into a zero accumulator, at `(p, q)`, is `Σ_k x(p, k) · w(k, q)`. -/
theorem matmul_zero_apply {φ₁ φ₂ : FTy} (prec : Option ContractPrecision)
    (x : FVec Ideal ⟨2, ![a, K]⟩ φ₁) (w : FVec Ideal ⟨2, ![K, b]⟩ φ₂) (p : Fin a) (q : Fin b) :
    (matmul (F := Ideal) d prec x w (constant ⟨2, ![a, b]⟩ .f32 0x00000000#32) (ix2 p q) : EReal)
      = ∑ k : Fin K, (x (ix2 p k) : EReal) * w (ix2 k q) := by
  show FloatOps.matmul d prec x w (constant ⟨2, ![a, b]⟩ .f32 0x00000000#32) (ix2 p q) = _
  rw [Ideal.matmul_constant_zero_apply, ← Equiv.sum_comp (contrEquiv1 d K hr hs).symm]
  exact Finset.sum_congr rfl fun k _ => by
    rw [lhsIdx_plain d hlb hln hlc hr hs, rhsIdx_plain d hlb hln hrb hrn hrc hr hs]

include hlb hln hlc hrb hrn hrc hr hs in
/-- The host's product, at `(p, q)`, is `Σ_k x(p, k) · w(k, q)`. -/
theorem dotGeneral_apply {φ₁ φ₂ : FTy} (prec : Option ContractPrecision)
    (x : FVec Ideal ⟨2, ![a, K]⟩ φ₁) (w : FVec Ideal ⟨2, ![K, b]⟩ φ₂) (p : Fin a) (q : Fin b) :
    (Host.dotGeneral (F := Ideal) d prec x w (ix2 p q) : EReal)
      = ∑ k : Fin K, (x (ix2 p k) : EReal) * w (ix2 k q) := by
  show FloatOps.dotGeneral d prec .single x w (ix2 p q) = _
  rw [Ideal.dotGeneral_apply, ← Equiv.sum_comp (contrEquiv1 d K hr hs).symm]
  exact Finset.sum_congr rfl fun k _ => by
    rw [lhsIdx_plain d hlb hln hlc hr hs, rhsIdx_plain d hlb hln hrb hrn hrc hr hs]

end Cert.Lib.PlainDot

end
-- ==== Proof.Product.lean ====
/-
  The product of a [20000, 512] matrix by a [512, 512] matrix.

  `product x w` is the host's contraction of axis 1 of `x` with axis 0 of `w`.  On the extended reals its entry
  `(p, q)` is the plain sum `Σ_k x(p, k) · w(k, q)` over the 512 positions of the contracted axis: no rounding, no
  accumulation order, nothing that depends on how the rows of `x` are grouped into blocks.
-/
import proofs.«149007_j75780402970819_1_alg».proof.Proof.GcnLayer
import proofs.«149007_j75780402970819_1_alg».proof.Proof.LibPlainDot

noncomputable section

namespace Cert.Gcn

open Idealize.ShloMosaic Idealize.ShloMosaic.ValueIdx Cert.KernelIdeal Cert.KernelIdeal.Gen

variable {F : FTy → Type} [FloatOps F]

/-- The dimension numbers of `x · w`: axis 1 of the left operand against axis 0 of the right one, no batch axis. -/
def dotWhole : DotDims S20000x512 S512x512 S20000x512 where
  lhsContracting := [1]
  rhsContracting := [0]
  lhsNonContracting := [0]
  rhsNonContracting := [1]
  lhsBatch := []
  rhsBatch := []
  wf := by decide

/-- `x · w`. -/
def product (x : Arr F S20000x512 .f32) (w : Arr F S512x512 .f32) : Arr F S20000x512 .f32 :=
  Host.dotGeneral dotWhole none x w

/-- On the extended reals, entry `(p, q)` of `x · w` is `Σ_k x(p, k) · w(k, q)`. -/
theorem product_apply (x : Arr Ideal S20000x512 .f32) (w : Arr Ideal S512x512 .f32) (p : Fin 20000) (q : Fin 512) :
    (product (F := Ideal) x w (ix2 p q) : EReal) = ∑ k : Fin 512, (x (ix2 p k) : EReal) * w (ix2 k q) :=
  Cert.Lib.PlainDot.dotGeneral_apply (a := 20000) (K := 512) (b := 512) dotWhole rfl rfl rfl rfl rfl rfl rfl rfl none x w p q

/-- The whole network: the layer applied to `x · w₁` with bias `b₁`, then the layer applied to the product of that result
    by `w₂` with bias `b₂`, both over the edges of `ei`.  What both programs compute as their first result; their second
    result is its column maxima. -/
def net (x : Arr F S20000x512 .f32) (ei : Arr F S2x320000 .i32) (w₁ : Arr F S512x512 .f32) (b₁ : Arr F S512 .f32)
    (w₂ : Arr F S512x512 .f32) (b₂ : Arr F S512 .f32) : Arr F S20000x512 .f32 :=
  layer (product (layer (product x w₁) (sources ei) (targets ei) b₁) w₂) (sources ei) (targets ei) b₂

/-- The network of equal arguments is the same array. -/
theorem net_congr {x x' : Arr F S20000x512 .f32} {ei ei' : Arr F S2x320000 .i32} {w₁ w₁' : Arr F S512x512 .f32}
    {b₁ b₁' : Arr F S512 .f32} {w₂ w₂' : Arr F S512x512 .f32} {b₂ b₂' : Arr F S512 .f32}
    (hx : x = x') (he : ei = ei') (hw₁ : w₁ = w₁') (hb₁ : b₁ = b₁') (hw₂ : w₂ = w₂') (hb₂ : b₂ = b₂') :
    net x ei w₁ b₁ w₂ b₂ = net x' ei' w₁' b₁' w₂' b₂' := by
  subst hx he hw₁ hb₁ hw₂ hb₂; rfl

end Cert.Gcn

end
-- ==== Proof.LibCastDot.lean ====
/-
  A matrix product of operands that were first cast to a narrower float format, on the extended reals.

  On the extended reals a change of float format is the identity on every element, so casting the operands of a
  contraction (to bf16, say, as a kernel or its host prologue does before a product that accumulates in f32) does not
  change any of the products `x(…) · w(…)` the contraction sums: the host's `dot_general` of the cast operands is the
  `dot_general` of the operands, and the vector unit's `tpu.matmul` of the cast operands into any accumulator is the
  `tpu.matmul` of the operands into it.  General in the shapes, the dimension numbers, the precision attribute and the
  four formats.
-/
import Idealize.ShloMosaic.PureOps.Ideal.Laws

noncomputable section

namespace Cert.Lib.CastDot

open Idealize.ShloMosaic

variable {sl sr so : Shape} {φ₁ φ₂ ψ₁ ψ₂ : FTy}

/-- The host's product of operands cast to narrower formats is the product of the operands. -/
theorem hostDot_truncf (d : DotDims sl sr so) (prec : Option ContractPrecision)
    (x : FVec Ideal sl φ₁) (w : FVec Ideal sr φ₂) (h : ψ₁.bits < φ₁.bits) (h' : ψ₂.bits < φ₂.bits) :
    Host.dotGeneral (F := Ideal) d prec (truncf ψ₁ x h) (truncf ψ₂ w h') = Host.dotGeneral (F := Ideal) d prec x w := by
  funext j
  show FloatOps.dotGeneral d prec .single (truncf ψ₁ x h) (truncf ψ₂ w h') j = FloatOps.dotGeneral d prec .single x w j
  rw [Ideal.dotGeneral_apply, Ideal.dotGeneral_apply]
  exact Finset.sum_congr rfl fun k _ => rfl

/-- The vector unit's product of operands cast to narrower formats, into any accumulator, is the product of the
    operands into it. -/
theorem matmul_truncf (d : DotDims sl sr so) (prec : Option ContractPrecision)
    (x : FVec Ideal sl φ₁) (w : FVec Ideal sr φ₂) (acc : FVec Ideal so .f32) (h : ψ₁.bits < φ₁.bits) (h' : ψ₂.bits < φ₂.bits) :
    matmul (F := Ideal) d prec (truncf ψ₁ x h) (truncf ψ₂ w h') acc = matmul (F := Ideal) d prec x w acc := by
  funext j
  show FloatOps.matmul d prec (truncf ψ₁ x h) (truncf ψ₂ w h') acc j = FloatOps.matmul d prec x w acc j
  rw [Ideal.matmul_apply, Ideal.matmul_apply]
  exact congrArg (acc j + ·) (Finset.sum_congr rfl fun k _ => rfl)

end Cert.Lib.CastDot

end
-- ==== Proof.BlockProduct.lean ====
/-
  What a region leaves in its output array: the whole product.

  Each of the two regions walks a grid of five points.  At point `t` the body loads rows 4000·t … 4000·t + 3999 of the
  left array (a [4000, 512] block) and the whole [512, 512] right array, multiplies them into a zero accumulator and
  stores the [4000, 512] result, which is written back to rows 4000·t … 4000·t + 3999 of the output array.  On the
  extended reals entry `(p, q)` of the block product is `Σ_k x(4000·t + p, k) · w(k, q)`, that is entry
  `(4000·t + p, q)` of the product of the whole arrays: a row of a product depends on that row of the left factor
  only.  The five row blocks tile the 20000 rows, so after the region the output array IS the whole product.
  Stated for any contents `V` of the buffers at the region's entry.
-/
import proofs.«149007_j75780402970819_1_alg».proof.Proof.Gen.KernelIdeal.Frame
import proofs.«149007_j75780402970819_1_alg».proof.Proof.Product
import proofs.«149007_j75780402970819_1_alg».proof.Proof.LibCastDot
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.Gcn

theorem hz : (![0, 0] : Fin 2 → Nat) = fun _ => 0 := funext fun a => by fin_cases a <;> rfl

/-! ## Region 0 -/

/-- The body's payload at an entry: the two operands are first cast to a narrower format, which changes no value on the
    extended reals, so the entry is the plain sum over the contracted axis of the products of the block entries. -/
theorem pay0_apply (x0 : Vec Ideal S4000x512 .f32) (x1 : Vec Ideal S512x512 .f32) (p : Fin 4000) (q : Fin 512) :
    (k0_pay1 (F := Ideal) x0 x1 (ix2 p q) : EReal) = ∑ k : Fin 512, (x0 (ix2 p k) : EReal) * x1 (ix2 k q) := by
  show (matmul (F := Ideal) dot_S4000x512_S512x512_S4000x512_1_0_0_1_n_n none
      (truncf .bf16 x0 bitsLt_bf16_f32) (truncf .bf16 x1 bitsLt_bf16_f32)
      (constant S4000x512 .f32 0x00000000#32) (ix2 p q) : EReal) = _
  refine (congrFun (Cert.Lib.CastDot.matmul_truncf dot_S4000x512_S512x512_S4000x512_1_0_0_1_n_n none x0 x1
    (constant S4000x512 .f32 0x00000000#32) bitsLt_bf16_f32 bitsLt_bf16_f32) (ix2 p q)).trans ?_
  exact Cert.Lib.PlainDot.matmul_zero_apply (a := 4000) (K := 512) (b := 512) dot_S4000x512_S512x512_S4000x512_1_0_0_1_n_n
    rfl rfl rfl rfl rfl rfl rfl rfl none x0 x1 p q

/-- The index maps over the grid: at point `t` the left operand's block and the output's block are row block `t`
    (column block 0), and the right operand's block is the whole matrix. -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` (rows 4000·t … 4000·t + 3999) of the product of the two arrays as the region
    finds them: entry `(p, q)` of the block's product sums `x(4000·t + p, k) · w(k, q)` over `k`, which is entry
    `(4000·t + p, q)` of the whole product. -/
theorem flushed0 (V : (c : Dev nD) → (b : Ref sig .tc) → Buf (Elt Ideal) ((c : Thread nD τ).loc b)) (c : Dev nD) (t : Fin cfg0.N) :
    (dat0 V c).flushed 2 t
      = ((cfg0.win 2).blk t).view.read (Elt Ideal) (product (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x512) hz]
  obtain ⟨e00, e01, e10, e11, e20, e21⟩ := index0 t
  have hN : cfg0.N = 5 := N_0
  have ht : t.val < 5 := by have := t.isLt; omega
  funext j
  obtain ⟨p, q, rfl⟩ : ∃ (p : Fin 4000) (q : Fin 512), j = ix2 p q := ⟨j 0, j 1, eq_ix2 j⟩
  have hp : p.val < 4000 := p.isLt
  have hP : t.val * 4000 + p.val < 20000 := by omega
  show (k0_pay1 (F := Ideal) (iblk0 V c 0 t) (iblk0 V c 1 t) (ix2 p q) : EReal)
    = product (F := Ideal) (V c main_arg0) (V c main_arg2) (((cfg0.win 2).blk t).view.emb (ix2 p q))
  have hemb : ((cfg0.win 2).blk t).view.emb (ix2 p q) = ix2 (⟨t.val * 4000 + p.val, hP⟩ : Fin 20000) q := by
    funext a; apply Fin.ext
    match a with
    | ⟨0, _⟩ => show win0_2.index t (0 : Fin 2) * 4000 + 1 * p.val = t.val * 4000 + p.val; omega
    | ⟨1, _⟩ => show win0_2.index t (1 : Fin 2) * 512 + 1 * q.val = q.val; omega
  rw [hemb]
  refine (pay0_apply (iblk0 V c 0 t) (iblk0 V c 1 t) p q).trans ?_
  refine (Finset.sum_congr rfl fun k _ => ?_).trans
    (product_apply (V c main_arg0) (V c main_arg2) (⟨t.val * 4000 + p.val, hP⟩ : Fin 20000) q).symm
  have h0 : iblk0 V c 0 t (ix2 p k) = V c main_arg0 (ix2 (⟨t.val * 4000 + p.val, hP⟩ : Fin 20000) k) := by
    show V c main_arg0 (((cfg0.win 0).blk t).view.emb (ix2 p k)) = _
    refine congrArg (V c main_arg0) ?_
    funext a; apply Fin.ext
    match a with
    | ⟨0, _⟩ => show win0_0.index t (0 : Fin 2) * 4000 + 1 * p.val = t.val * 4000 + p.val; omega
    | ⟨1, _⟩ => show win0_0.index t (1 : Fin 2) * 512 + 1 * k.val = k.val; omega
  have h1 : iblk0 V c 1 t (ix2 k q) = V c main_arg2 (ix2 k q) := by
    show V c main_arg2 (((cfg0.win 1).blk t).view.emb (ix2 k q)) = _
    refine congrArg (V c main_arg2) ?_
    funext a; apply Fin.ext
    match a with
    | ⟨0, _⟩ => show win0_1.index t (0 : Fin 2) * 512 + 1 * k.val = k.val; omega
    | ⟨1, _⟩ => show win0_1.index t (1 : Fin 2) * 512 + 1 * q.val = q.val; omega
  rw [h0, h1]

/-- An index of the output array is in point `t`'s block iff each coordinate is in the block's range on its axis. -/
theorem mem_blk0 (t : Fin cfg0.N) (i : S20000x512.Idx) :
    i ∈ ((cfg0.win 2).blk t).view.set ↔ ∀ a : Fin 2, win0_2.index t a * S4000x512.size a ≤ (i a).val
      ∧ (i a).val < win0_2.index t a * S4000x512.size a + S4000x512.size a := by
  show i ∈ ((View.whole main_v4).slice (win0_2.rect t)).set ↔ _
  rw [View.set_slice_whole, Rect.mem_set_unit]
  exact Iff.rfl

/-- The five row blocks cover the array: row `r` is in block `r / 4000`. -/
theorem cover0 (i : S20000x512.Idx) :
    ∃ t : Fin cfg0.N, (cfg0.win 2).flush t = true ∧ i ∈ ((cfg0.win 2).blk t).view.set := by
  have hi0 : (i 0).val < 20000 := (i 0).isLt
  have hi1 : (i 1).val < 512 := (i 1).isLt
  have hN : grid0.N = 5 := N_0
  have hlt : (i 0).val / 4000 < grid0.N := by omega
  refine ⟨⟨(i 0).val / 4000, hlt⟩, flush0_2 _, ?_⟩
  obtain ⟨-, -, -, -, e20, e21⟩ := index0 ⟨(i 0).val / 4000, hlt⟩
  rw [mem_blk0]
  intro a
  match a with
  | ⟨0, _⟩ =>
    show win0_2.index ⟨(i 0).val / 4000, hlt⟩ (0 : Fin 2) * 4000 ≤ (i 0).val
      ∧ (i 0).val < win0_2.index ⟨(i 0).val / 4000, hlt⟩ (0 : Fin 2) * 4000 + 4000
    rw [e20]; show (i 0).val / 4000 * 4000 ≤ (i 0).val ∧ (i 0).val < (i 0).val / 4000 * 4000 + 4000; omega
  | ⟨1, _⟩ =>
    show win0_2.index ⟨(i 0).val / 4000, hlt⟩ (1 : Fin 2) * 512 ≤ (i 1).val
      ∧ (i 1).val < win0_2.index ⟨(i 0).val / 4000, hlt⟩ (1 : Fin 2) * 512 + 512
    rw [e21]; omega

/-- THE OUTPUT ARRAY after the region: the product of the two input arrays as the region finds them. -/
theorem array0 (V : (c : Dev nD) → (b : Ref sig .tc) → Buf (Elt Ideal) ((c : Thread nD τ).loc b)) (c : Dev nD) :
    (dat0 V c).arrAt 2 cfg0.N = product (F := Ideal) (V c main_arg0) (V c main_arg2) :=
  (dat0 V c).arrAt_eq_of_cover 2 _ (fun t _ => flushed0 V c t) cover0

/-! ## Region 1 -/

/-- The body's payload at an entry: the two operands are first cast to a narrower format, which changes no value on the
    extended reals (and the left one is first cast to its own shape), so the entry is the plain sum over the contracted axis of the products of the block entries. -/
theorem pay1_apply (x0 : Vec Ideal S4000x512 .f32) (x1 : Vec Ideal S512x512 .f32) (p : Fin 4000) (q : Fin 512) :
    (k1_pay1 (F := Ideal) x0 x1 (ix2 p q) : EReal) = ∑ k : Fin 512, (x0 (ix2 p k) : EReal) * x1 (ix2 k q) := by
  have e : shapeCast S4000x512 x0 shapeCasts_S4000x512_S4000x512 = x0 := shapeCast_self x0 _
  show (matmul (F := Ideal) dot_S4000x512_S512x512_S4000x512_1_0_0_1_n_n none
      (truncf .bf16 (shapeCast S4000x512 x0 shapeCasts_S4000x512_S4000x512) bitsLt_bf16_f32) (truncf .bf16 x1 bitsLt_bf16_f32)
      (constant S4000x512 .f32 0x00000000#32) (ix2 p q) : EReal) = _
  rw [e]
  refine (congrFun (Cert.Lib.CastDot.matmul_truncf dot_S4000x512_S512x512_S4000x512_1_0_0_1_n_n none x0 x1
    (constant S4000x512 .f32 0x00000000#32) bitsLt_bf16_f32 bitsLt_bf16_f32) (ix2 p q)).trans ?_
  exact Cert.Lib.PlainDot.matmul_zero_apply (a := 4000) (K := 512) (b := 512) dot_S4000x512_S512x512_S4000x512_1_0_0_1_n_n
    rfl rfl rfl rfl rfl rfl rfl rfl none x0 x1 p q

/-- The index maps over the grid: at point `t` the left operand's block and the output's block are row block `t`
    (column block 0), and the right operand's block is the whole matrix. -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` (rows 4000·t … 4000·t + 3999) of the product of the two arrays as the region
    finds them: entry `(p, q)` of the block's product sums `x(4000·t + p, k) · w(k, q)` over `k`, which is entry
    `(4000·t + p, q)` of the whole product. -/
theorem flushed1 (V : (c : Dev nD) → (b : Ref sig .tc) → Buf (Elt Ideal) ((c : Thread nD τ).loc b)) (c : Dev nD) (t : Fin cfg1.N) :
    (dat1 V c).flushed 2 t
      = ((cfg1.win 2).blk t).view.read (Elt Ideal) (product (F := Ideal) (V c main_v47) (V c main_arg4)) := by
  show (cfg1.win 2).cut (grid1.coords t) ((dat1 V c).after 2 t) = _
  rw [after1_2]
  unfold out1_2
  rw [View.canon_unit_zero hz]
  simp only [View.ld_unit_zero (S := S4000x512) hz, View.ld_unit_zero (S := S512x512) hz]
  obtain ⟨e00, e01, e10, e11, e20, e21⟩ := index1 t
  have hN : cfg1.N = 5 := N_1
  have ht : t.val < 5 := by have := t.isLt; omega
  funext j
  obtain ⟨p, q, rfl⟩ : ∃ (p : Fin 4000) (q : Fin 512), j = ix2 p q := ⟨j 0, j 1, eq_ix2 j⟩
  have hp : p.val < 4000 := p.isLt
  have hP : t.val * 4000 + p.val < 20000 := by omega
  show (k1_pay1 (F := Ideal) (iblk1 V c 0 t) (iblk1 V c 1 t) (ix2 p q) : EReal)
    = product (F := Ideal) (V c main_v47) (V c main_arg4) (((cfg1.win 2).blk t).view.emb (ix2 p q))
  have hemb : ((cfg1.win 2).blk t).view.emb (ix2 p q) = ix2 (⟨t.val * 4000 + p.val, hP⟩ : Fin 20000) q := by
    funext a; apply Fin.ext
    match a with
    | ⟨0, _⟩ => show win1_2.index t (0 : Fin 2) * 4000 + 1 * p.val = t.val * 4000 + p.val; omega
    | ⟨1, _⟩ => show win1_2.index t (1 : Fin 2) * 512 + 1 * q.val = q.val; omega
  rw [hemb]
  refine (pay1_apply (iblk1 V c 0 t) (iblk1 V c 1 t) p q).trans ?_
  refine (Finset.sum_congr rfl fun k _ => ?_).trans
    (product_apply (V c main_v47) (V c main_arg4) (⟨t.val * 4000 + p.val, hP⟩ : Fin 20000) q).symm
  have h0 : iblk1 V c 0 t (ix2 p k) = V c main_v47 (ix2 (⟨t.val * 4000 + p.val, hP⟩ : Fin 20000) k) := by
    show V c main_v47 (((cfg1.win 0).blk t).view.emb (ix2 p k)) = _
    refine congrArg (V c main_v47) ?_
    funext a; apply Fin.ext
    match a with
    | ⟨0, _⟩ => show win1_0.index t (0 : Fin 2) * 4000 + 1 * p.val = t.val * 4000 + p.val; omega
    | ⟨1, _⟩ => show win1_0.index t (1 : Fin 2) * 512 + 1 * k.val = k.val; omega
  have h1 : iblk1 V c 1 t (ix2 k q) = V c main_arg4 (ix2 k q) := by
    show V c main_arg4 (((cfg1.win 1).blk t).view.emb (ix2 k q)) = _
    refine congrArg (V c main_arg4) ?_
    funext a; apply Fin.ext
    match a with
    | ⟨0, _⟩ => show win1_1.index t (0 : Fin 2) * 512 + 1 * k.val = k.val; omega
    | ⟨1, _⟩ => show win1_1.index t (1 : Fin 2) * 512 + 1 * q.val = q.val; omega
  rw [h0, h1]

/-- An index of the output array is in point `t`'s block iff each coordinate is in the block's range on its axis. -/
theorem mem_blk1 (t : Fin cfg1.N) (i : S20000x512.Idx) :
    i ∈ ((cfg1.win 2).blk t).view.set ↔ ∀ a : Fin 2, win1_2.index t a * S4000x512.size a ≤ (i a).val
      ∧ (i a).val < win1_2.index t a * S4000x512.size a + S4000x512.size a := by
  show i ∈ ((View.whole main_v48).slice (win1_2.rect t)).set ↔ _
  rw [View.set_slice_whole, Rect.mem_set_unit]
  exact Iff.rfl

/-- The five row blocks cover the array: row `r` is in block `r / 4000`. -/
theorem cover1 (i : S20000x512.Idx) :
    ∃ t : Fin cfg1.N, (cfg1.win 2).flush t = true ∧ i ∈ ((cfg1.win 2).blk t).view.set := by
  have hi0 : (i 0).val < 20000 := (i 0).isLt
  have hi1 : (i 1).val < 512 := (i 1).isLt
  have hN : grid1.N = 5 := N_1
  have hlt : (i 0).val / 4000 < grid1.N := by omega
  refine ⟨⟨(i 0).val / 4000, hlt⟩, flush1_2 _, ?_⟩
  obtain ⟨-, -, -, -, e20, e21⟩ := index1 ⟨(i 0).val / 4000, hlt⟩
  rw [mem_blk1]
  intro a
  match a with
  | ⟨0, _⟩ =>
    show win1_2.index ⟨(i 0).val / 4000, hlt⟩ (0 : Fin 2) * 4000 ≤ (i 0).val
      ∧ (i 0).val < win1_2.index ⟨(i 0).val / 4000, hlt⟩ (0 : Fin 2) * 4000 + 4000
    rw [e20]; show (i 0).val / 4000 * 4000 ≤ (i 0).val ∧ (i 0).val < (i 0).val / 4000 * 4000 + 4000; omega
  | ⟨1, _⟩ =>
    show win1_2.index ⟨(i 0).val / 4000, hlt⟩ (1 : Fin 2) * 512 ≤ (i 1).val
      ∧ (i 1).val < win1_2.index ⟨(i 0).val / 4000, hlt⟩ (1 : Fin 2) * 512 + 512
    rw [e21]; omega

/-- THE OUTPUT ARRAY after the region: the product of the two input arrays as the region finds them. -/
theorem array1 (V : (c : Dev nD) → (b : Ref sig .tc) → Buf (Elt Ideal) ((c : Thread nD τ).loc b)) (c : Dev nD) :
    (dat1 V c).arrAt 2 cfg1.N = product (F := Ideal) (V c main_v47) (V c main_arg4) :=
  (dat1 V c).arrAt_eq_of_cover 2 _ (fun t _ => flushed1 V c t) cover1

end Cert.KernelIdeal.Blocks

end
-- ==== Proof.KernelStretches.lean ====
/-
  The kernel program's host operations between its regions, read as the layer.

  The program's host operations come in three groups: before the first region the two rows of the edge array are cut
  out and flattened; between the regions the first region's output `h` goes through one layer (degrees, weights,
  gather, scale, scatter-add, bias, relu); after the second region its output goes through the same layer and the
  column maxima are taken.  Each statement below says what one group leaves in a buffer as a function of what the
  buffers held when the group started (any contents `V`): the buffers a group reads but does not write keep their
  contents, and the layer's result is `Gcn.layer` of the contents of the four buffers it reads.
-/
import proofs.«149007_j75780402970819_1_alg».proof.Proof.Gen.KernelIdeal.Launch
import proofs.«149007_j75780402970819_1_alg».proof.Proof.GcnLayer
import Idealize.ShloMosaic.Lib.StableHlo.Run

set_option maxRecDepth 65536

noncomputable section

namespace Cert.KernelIdeal.Stretches

open Idealize.ShloMosaic Idealize.ShloMosaic.TcCoe Idealize.ShloMosaic.StableHlo
open Cert.KernelIdeal Cert.KernelIdeal.Gen Cert.Gcn

variable {F : FTy → Type} [FloatOps F]

/-! ## Before the first region -/

/-- The flattened first row of the edge array. -/
theorem sources_read (V : Valuation τ sig (Elt F)) :
    after hostOps0 V (Proc.devRef .tc main_v1) = sources (F := F) (V (Proc.devRef .tc main_arg1)) := by
  after_results_simp
  rfl

/-- The flattened second row of the edge array. -/
theorem targets_read (V : Valuation τ sig (Elt F)) :
    after hostOps0 V (Proc.devRef .tc main_v3) = targets (F := F) (V (Proc.devRef .tc main_arg1)) := by
  after_results_simp
  rfl

/-- Cutting the edge array's rows out leaves `main_arg0` alone. -/
theorem pre_keep_arg0 (V : Valuation τ sig (Elt F)) :
    after hostOps0 V (Proc.devRef .tc main_arg0) = V (Proc.devRef .tc main_arg0) := by
  after_results_simp

/-- Cutting the edge array's rows out leaves `main_arg2` alone. -/
theorem pre_keep_arg2 (V : Valuation τ sig (Elt F)) :
    after hostOps0 V (Proc.devRef .tc main_arg2) = V (Proc.devRef .tc main_arg2) := by
  after_results_simp

/-- Cutting the edge array's rows out leaves `main_arg3` alone. -/
theorem pre_keep_arg3 (V : Valuation τ sig (Elt F)) :
    after hostOps0 V (Proc.devRef .tc main_arg3) = V (Proc.devRef .tc main_arg3) := by
  after_results_simp

/-- Cutting the edge array's rows out leaves `main_arg4` alone. -/
theorem pre_keep_arg4 (V : Valuation τ sig (Elt F)) :
    after hostOps0 V (Proc.devRef .tc main_arg4) = V (Proc.devRef .tc main_arg4) := by
  after_results_simp

/-- Cutting the edge array's rows out leaves `main_arg5` alone. -/
theorem pre_keep_arg5 (V : Valuation τ sig (Elt F)) :
    after hostOps0 V (Proc.devRef .tc main_arg5) = V (Proc.devRef .tc main_arg5) := by
  after_results_simp

/-! ## Between the regions: the first layer -/

/-- The first layer's result, from the first region's output (`main_v4`), the two edge rows and the first bias. -/
theorem layer1_read (V : Valuation τ sig (Elt F)) :
    after hostOps1_3 (after hostOps1_2 (after hostOps1_1 (after hostOps1 V))) (Proc.devRef .tc main_v47)
      = layer (F := F) (V (Proc.devRef .tc main_v4)) (V (Proc.devRef .tc main_v1)) (V (Proc.devRef .tc main_v3))
          (V (Proc.devRef .tc main_arg3)) := by
  after_results_simp
  rfl

/-- The first layer's operations leave `main_v1` alone. -/
theorem layer1_keep_v1 (V : Valuation τ sig (Elt F)) :
    after hostOps1_3 (after hostOps1_2 (after hostOps1_1 (after hostOps1 V))) (Proc.devRef .tc main_v1) = V (Proc.devRef .tc main_v1) := by
  after_results_simp

/-- The first layer's operations leave `main_v3` alone. -/
theorem layer1_keep_v3 (V : Valuation τ sig (Elt F)) :
    after hostOps1_3 (after hostOps1_2 (after hostOps1_1 (after hostOps1 V))) (Proc.devRef .tc main_v3) = V (Proc.devRef .tc main_v3) := by
  after_results_simp

/-- The first layer's operations leave `main_arg4` alone. -/
theorem layer1_keep_arg4 (V : Valuation τ sig (Elt F)) :
    after hostOps1_3 (after hostOps1_2 (after hostOps1_1 (after hostOps1 V))) (Proc.devRef .tc main_arg4) = V (Proc.devRef .tc main_arg4) := by
  after_results_simp

/-- The first layer's operations leave `main_arg5` alone. -/
theorem layer1_keep_arg5 (V : Valuation τ sig (Elt F)) :
    after hostOps1_3 (after hostOps1_2 (after hostOps1_1 (after hostOps1 V))) (Proc.devRef .tc main_arg5) = V (Proc.devRef .tc main_arg5) := by
  after_results_simp

/-! ## After the second region: the second layer and the column maxima -/

/-- The second layer's result, from the second region's output (`main_v48`), the two edge rows and the second bias. -/
theorem layer2_read (V : Valuation τ sig (Elt F)) :
    after hostOps2_4 (after hostOps2_3 (after hostOps2_2 (after hostOps2_1 (after hostOps2 V)))) (Proc.devRef .tc main_v91)
      = layer (F := F) (V (Proc.devRef .tc main_v48)) (V (Proc.devRef .tc main_v1)) (V (Proc.devRef .tc main_v3))
          (V (Proc.devRef .tc main_arg5)) := by
  after_results_simp
  rfl

/-- The column maxima of the second layer's result. -/
theorem colMax_read (V : Valuation τ sig (Elt F)) :
    after hostOps2_4 (after hostOps2_3 (after hostOps2_2 (after hostOps2_1 (after hostOps2 V)))) (Proc.devRef .tc main_v93)
      = colMax (F := F) (layer (F := F) (V (Proc.devRef .tc main_v48)) (V (Proc.devRef .tc main_v1))
          (V (Proc.devRef .tc main_v3)) (V (Proc.devRef .tc main_arg5))) := by
  after_results_simp
  rfl

end Cert.KernelIdeal.Stretches

end
-- ==== Proof.KernelValue.lean ====
/-
  The kernel program's two results as functions of its arguments.

  The program is: cut the edge array's rows out; region 0 (the product `x · W₁`, five row blocks); the first layer;
  region 1 (the product of the first layer's result by `W₂`); the second layer; the column maxima.  Reading the buffer
  contents at each boundary in turn — a group of host operations by what it computes from the buffers it reads, a
  region by the product its five blocks leave in its output array, every other buffer by the fact that nobody wrote
  it — the first result is `Gcn.net` of the six argument arrays and the second its column maxima, on the extended
  reals, whatever the arguments hold.  Then the run itself: every weakly fair execution terminates without a fault
  with the two results at those values and the arguments unchanged.
-/
import proofs.«149007_j75780402970819_1_alg».proof.Proof.Gen.KernelIdeal.Frame
import proofs.«149007_j75780402970819_1_alg».proof.Proof.BlockProduct
import proofs.«149007_j75780402970819_1_alg».proof.Proof.KernelStretches

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Gcn

local notation "𝕄" => MT nD τ sig Unit (Elt Ideal) ℕ (UR sig nD τ) ℕ

variable (m : (ℓ : Loc nD τ sig) → Buf (Elt Ideal) ℓ) (ρ : Dev nD → PrngReg)

/-! ## At region 0's entry: the edge rows are cut out, the arguments are as launched -/

theorem W1_sources (c : Dev nD) : W1 m ρ c (Proc.devRef .tc main_v1) = sources (F := Ideal) (m ((c : Thread nD τ).loc main_arg1)) :=
  Stretches.sources_read (W0 m ρ c)
theorem W1_targets (c : Dev nD) : W1 m ρ c (Proc.devRef .tc main_v3) = targets (F := Ideal) (m ((c : Thread nD τ).loc main_arg1)) :=
  Stretches.targets_read (W0 m ρ c)
theorem W1_arg0 (c : Dev nD) : W1 m ρ c (Proc.devRef .tc main_arg0) = m ((c : Thread nD τ).loc main_arg0) :=
  Stretches.pre_keep_arg0 (W0 m ρ c)
theorem W1_arg2 (c : Dev nD) : W1 m ρ c (Proc.devRef .tc main_arg2) = m ((c : Thread nD τ).loc main_arg2) :=
  Stretches.pre_keep_arg2 (W0 m ρ c)
theorem W1_arg3 (c : Dev nD) : W1 m ρ c (Proc.devRef .tc main_arg3) = m ((c : Thread nD τ).loc main_arg3) :=
  Stretches.pre_keep_arg3 (W0 m ρ c)
theorem W1_arg4 (c : Dev nD) : W1 m ρ c (Proc.devRef .tc main_arg4) = m ((c : Thread nD τ).loc main_arg4) :=
  Stretches.pre_keep_arg4 (W0 m ρ c)
theorem W1_arg5 (c : Dev nD) : W1 m ρ c (Proc.devRef .tc main_arg5) = m ((c : Thread nD τ).loc main_arg5) :=
  Stretches.pre_keep_arg5 (W0 m ρ c)

/-! ## At region 0's exit: its output array is `x · W₁`, nothing else has moved -/

theorem W2_product (c : Dev nD) :
    W2 m ρ c (Proc.devRef .tc main_v4) = product (F := Ideal) (m ((c : Thread nD τ).loc main_arg0)) (m ((c : Thread nD τ).loc main_arg2)) :=
  (W2_arr m ρ c 2).trans ((Blocks.array0 (V1 m ρ) c).trans
    (congrArg₂ (product (F := Ideal)) (W1_arg0 m ρ c) (W1_arg2 m ρ c)))
theorem W2_sources (c : Dev nD) : W2 m ρ c (Proc.devRef .tc main_v1) = sources (F := Ideal) (m ((c : Thread nD τ).loc main_arg1)) :=
  (W2_of_ne m ρ c main_v1 (by decide)).trans (W1_sources m ρ c)
theorem W2_targets (c : Dev nD) : W2 m ρ c (Proc.devRef .tc main_v3) = targets (F := Ideal) (m ((c : Thread nD τ).loc main_arg1)) :=
  (W2_of_ne m ρ c main_v3 (by decide)).trans (W1_targets m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-! ## At region 1's entry: the first layer's result -/

theorem W6_layer (c : Dev nD) :
    W6 m ρ c (Proc.devRef .tc main_v47) = layer (F := Ideal) (product (F := Ideal) (m ((c : Thread nD τ).loc main_arg0)) (m ((c : Thread nD τ).loc main_arg2))) (sources (F := Ideal) (m ((c : Thread nD τ).loc main_arg1))) (targets (F := Ideal) (m ((c : Thread nD τ).loc main_arg1))) (m ((c : Thread nD τ).loc main_arg3)) :=
  (Stretches.layer1_read (W2 m ρ c)).trans (by rw [W2_product, W2_sources, W2_targets, W2_arg3])
theorem W6_sources (c : Dev nD) : W6 m ρ c (Proc.devRef .tc main_v1) = sources (F := Ideal) (m ((c : Thread nD τ).loc main_arg1)) :=
  (Stretches.layer1_keep_v1 (W2 m ρ c)).trans (W2_sources m ρ c)
theorem W6_targets (c : Dev nD) : W6 m ρ c (Proc.devRef .tc main_v3) = targets (F := Ideal) (m ((c : Thread nD τ).loc main_arg1)) :=
  (Stretches.layer1_keep_v3 (W2 m ρ c)).trans (W2_targets m ρ c)
theorem W6_arg4 (c : Dev nD) : W6 m ρ c (Proc.devRef .tc main_arg4) = m ((c : Thread nD τ).loc main_arg4) :=
  (Stretches.layer1_keep_arg4 (W2 m ρ c)).trans (W2_arg4 m ρ c)
theorem W6_arg5 (c : Dev nD) : W6 m ρ c (Proc.devRef .tc main_arg5) = m ((c : Thread nD τ).loc main_arg5) :=
  (Stretches.layer1_keep_arg5 (W2 m ρ c)).trans (W2_arg5 m ρ c)

/-! ## At region 1's exit: its output array is the first layer's result times `W₂` -/

theorem W7_product (c : Dev nD) :
    W7 m ρ c (Proc.devRef .tc main_v48) = product (F := Ideal) (layer (F := Ideal) (product (F := Ideal) (m ((c : Thread nD τ).loc main_arg0)) (m ((c : Thread nD τ).loc main_arg2))) (sources (F := Ideal) (m ((c : Thread nD τ).loc main_arg1))) (targets (F := Ideal) (m ((c : Thread nD τ).loc main_arg1))) (m ((c : Thread nD τ).loc main_arg3))) (m ((c : Thread nD τ).loc main_arg4)) :=
  (W7_arr m ρ c 2).trans ((Blocks.array1 (V6 m ρ) c).trans
    (congrArg₂ (product (F := Ideal)) (W6_layer m ρ c) (W6_arg4 m ρ c)))
theorem W7_sources (c : Dev nD) : W7 m ρ c (Proc.devRef .tc main_v1) = sources (F := Ideal) (m ((c : Thread nD τ).loc main_arg1)) :=
  (W7_of_ne m ρ c main_v1 (by decide)).trans (W6_sources m ρ c)
theorem W7_targets (c : Dev nD) : W7 m ρ c (Proc.devRef .tc main_v3) = targets (F := Ideal) (m ((c : Thread nD τ).loc main_arg1)) :=
  (W7_of_ne m ρ c main_v3 (by decide)).trans (W6_targets m ρ c)
theorem W7_arg5 (c : Dev nD) : W7 m ρ c (Proc.devRef .tc main_arg5) = m ((c : Thread nD τ).loc main_arg5) :=
  (W7_of_ne m ρ c main_arg5 (by decide)).trans (W6_arg5 m ρ c)

/-! ## At the return: the two results -/

/-- The first result is the network of the arguments. -/
theorem W12_net (c : Dev nD) : W12 m ρ c (Proc.devRef .tc main_v91) = net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (Stretches.layer2_read (W7 m ρ c)).trans (by rw [W7_product, W7_sources, W7_targets, W7_arg5]; rfl)

/-- The second result is its column maxima. -/
theorem W12_colMax (c : Dev nD) : W12 m ρ c (Proc.devRef .tc main_v93) = colMax (F := Ideal) (net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (Stretches.colMax_read (W7 m ρ c)).trans (by rw [W7_product, W7_sources, W7_targets, W7_arg5]; rfl)

/-! ## The run -/

-- the implicit arguments of the library's theorem on a program of several regions are found by unifying its
-- conclusion with this statement, which takes unfolding plain definitions in a metavariable's type
set_option backward.isDefEq.respectTransparency.types false in
/-- Every weakly fair execution of the program terminates, nothing faulting, with the first result at the network of
    the arguments, the second at its column maxima, and the argument arrays as launched: the program's segments run
    from the launch to the return, and the last boundary's contents read at the two results and the six arguments. -/
theorem run : θ_run defs (onTc (τ := τ) (main (F := Ideal))) ⟨m, fun _ => 0, ρ⟩ (fun r => ∀ c : Dev nD,
      r.2.mem ((c.tc : Thread nD τ).loc main_v91) = net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v93) = colMax (F := Ideal) (net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨(h c _ (mem_uc main_v91 (by decide))).trans (W12_net m ρ c),
       (h c _ (mem_uc main_v93 (by decide))).trans (W12_colMax m ρ c),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

end Cert.KernelIdeal.Net

end
-- ==== Proof.ReferenceValue.lean ====
/-
  The reference program's two results as functions of its arguments.

  The reference is one line of host operations: the same cutting of the edge array's rows, the same two layers and the
  same column maxima as the kernel program, with the host's own contraction `x · W` where the kernel program launches
  a region.  Its run states each result as the operations' composed term of the arguments; that term is, operation for
  operation, `Gcn.net` of the arguments (and `Gcn.colMax` of it): unfolding the layer's definitions gives the same
  tree of operations, the two programs' records of dimension numbers holding the same lists.
-/
import proofs.«149007_j75780402970819_1_alg».proof.Proof.ReferenceRun
import proofs.«149007_j75780402970819_1_alg».proof.Proof.Product

set_option maxRecDepth 65536

noncomputable section

namespace Cert.ReferenceIdeal.Net

open Idealize.ShloMosaic Idealize.ShloMosaic.TcCoe Idealize.SL.Sem
open Cert.ReferenceIdeal Cert.Gcn

variable (m : (ℓ : Loc nD τ sig) → Buf (Elt Ideal) ℓ)

/-- The first result's composed term is the network of the arguments. -/
theorem out0_eq (c : Dev nD) : ValueP.res_main_v91 (F := Ideal) m c = net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold ValueP.res_main_v91
  rfl

/-- The second result's composed term is the network's column maxima. -/
theorem out1_eq (c : Dev nD) : ValueP.res_main_v93 (F := Ideal) m c = colMax (F := Ideal) (net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  unfold ValueP.res_main_v93
  rfl

end Cert.ReferenceIdeal.Net

end
-- ==== Proof.lean ====
/-
  A two-layer graph convolution over 20000 nodes with 512 features and 320000 edges, followed by the maximum of every
  feature over the nodes: a kernel program against its reference, on the extended reals.

  Both programs compute, for each of the two layers,

      relu ( D^(-1/2) (A + I) D^(-1/2) (h · W) + b )

  with the aggregation written as a gather of the rows of `h · W` at the edges' sources, a scaling by
  `deg[source]^(-1/2) · deg[target]^(-1/2)`, and a scatter-add at the edges' targets (`Gcn.layer`, Proof/GcnLayer.lean).
  They differ in one thing: the reference takes the product `h · W` with the host's contraction of the whole arrays,
  while the kernel program launches a region that walks five blocks of 4000 rows, casts each block and `W` to bf16,
  multiplies them on the matrix unit into a zero accumulator and writes the block of the result back.  On the extended
  reals a change of float format is the identity and both products are the plain sum `Σ_k h(p, k) · W(k, q)`; a row of
  the product depends on that row of `h` only, so the five row blocks are the whole product (Proof/BlockProduct.lean).
  Hence both programs end with `Gcn.net` of their arguments and its column maxima (Proof/KernelValue.lean,
  Proof/ReferenceValue.lean): the same sums of the same products, so the two results are equal whatever the arguments
  hold — no law of arithmetic beyond that is used, and the precondition (every float input finite) is not needed.

  The ideal pass rewrote no operation of the kernel program, so there is nothing to preserve.  The three frame claims
  are the generated frames of the two kernel programs and the reference's run with its results dropped.
-/
import proofs.«149007_j75780402970819_1_alg».proof.Defs
import proofs.«149007_j75780402970819_1_alg».proof.Proof.Gen.Kernel
import proofs.«149007_j75780402970819_1_alg».proof.Proof.Gen.Kernel.Skeleton
import proofs.«149007_j75780402970819_1_alg».proof.Proof.Gen.Kernel.Launch
import proofs.«149007_j75780402970819_1_alg».proof.Proof.Gen.Kernel.Points
import proofs.«149007_j75780402970819_1_alg».proof.Proof.Gen.Kernel.Frame
import proofs.«149007_j75780402970819_1_alg».proof.Proof.Gen.KernelIdeal
import proofs.«149007_j75780402970819_1_alg».proof.Proof.Gen.KernelIdeal.Skeleton
import proofs.«149007_j75780402970819_1_alg».proof.Proof.Gen.KernelIdeal.Launch
import proofs.«149007_j75780402970819_1_alg».proof.Proof.Gen.KernelIdeal.Points
import proofs.«149007_j75780402970819_1_alg».proof.Proof.Gen.KernelIdeal.Frame
import proofs.«149007_j75780402970819_1_alg».proof.Proof.Gen.ReferenceIdeal
import proofs.«149007_j75780402970819_1_alg».proof.Proof.Gen.Pre_finite_inputs
import proofs.«149007_j75780402970819_1_alg».proof.Proof.KernelValue
import proofs.«149007_j75780402970819_1_alg».proof.Proof.ReferenceValue
import Idealize.ShloMosaic.Adequacy
import Idealize.ShloMosaic.Init

noncomputable section

namespace Cert.Proof

open Idealize.ShloMosaic Idealize.SL.Sem

/-- The kernel program runs and leaves its arguments unchanged. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, with what it says of the results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- On the extended reals the two programs, run from memories that agree on the arguments, end with the same two
    results: the network of the arguments and its column maxima. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Gcn.colMax (F := Ideal) (Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))),
    Cert.KernelIdeal.Net.run m ρ, ?_⟩
  have hnet : ∀ c : Dev Cert.ReferenceIdeal.nD, Cert.ReferenceIdeal.ValueP.res_main_v91 (F := Ideal) m' c = Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
    fun c => (Cert.ReferenceIdeal.Net.out0_eq m' c).trans
      (Cert.Gcn.net_congr (F := Ideal) (hagree c).1 (hagree c).2.1 (hagree c).2.2.1 (hagree c).2.2.2.1 (hagree c).2.2.2.2.1 (hagree c).2.2.2.2.2)
  have hmax : ∀ c : Dev Cert.ReferenceIdeal.nD, Cert.ReferenceIdeal.ValueP.res_main_v93 (F := Ideal) m' c
      = Cert.Gcn.colMax (F := Ideal) (Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) :=
    fun c => (Cert.ReferenceIdeal.Net.out1_eq m' c).trans (congrArg (Cert.Gcn.colMax (F := Ideal))
      (Cert.Gcn.net_congr (F := Ideal) (hagree c).1 (hagree c).2.1 (hagree c).2.2.1 (hagree c).2.2.2.1 (hagree c).2.2.2.2.1 (hagree c).2.2.2.2.2))
  exact (θ_run Cert.ReferenceIdeal.defs _ _).mono
    (fun _ h c => ⟨(h c).1.trans (hnet c), (h c).2.1.trans (hmax c), (h c).2.2⟩)
    (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
